-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S2x600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S1x600000 32 := (extractStridedSlice S1x600000 ![1, 0] · slices_S2x600000_S1x600000_1_0) main_arg1
  let main_v20 : IVec S600000 32 := shapeCast S600000 main_v19 shapeCasts_S1x600000_S600000
  let main_c_6 : IVec S_ 32 := constantI S_ 32 0#32
  let main_v21 : IVec S600000 32 := broadcastInDim S600000 ![] bcast_S_S600000 main_c_6
  let main_v22 : IVec S600000 1 := cmpi .sge main_v20 main_v21
  let main_c_7 : IVec S_ 1 := constantI S_ 1 1#1
  let main_v23 : IVec S_ 1 := (fun x v => Host.reduce IntOp.andi x v reducesTo_S600000_S_d0 h_S_) main_v22 main_c_7
  let main_v24 : IVec S_ 1 := andi main_v18 main_v23
  main_v24

def fn {F : FTy → Type} [FloatOps F] (main_arg0 : FVec F S50000x128 .f32) (main_arg1 : IVec S2x600000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 45
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .f32⟩
  | .hbm, ⟨10, _⟩ => ⟨S50000x128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S_, .f32⟩
  | .hbm, ⟨32, _⟩ => ⟨S600000, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S50000, .f32⟩
  | .hbm, ⟨42, _⟩ => ⟨S50000x1, .f32⟩
  | .hbm, ⟨43, _⟩ => ⟨S1x128, .f32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S50000x128, .f32⟩
  | .hbm, ⟨20, _⟩ => ⟨S600000x1, .i32⟩
  | .hbm, ⟨21, _⟩ => ⟨S50000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One SAGE convolution layer with mean aggregation, as a function of its operands, entry by entry.

  With M the per-node sum of the neighbours' feature rows, D the per-node number of incoming edges, X the node
  features, Wl and Wr the two 128 × 128 weight matrices and B the bias, entry (r, c) of the layer's result is

      max ( ( Σₖ (M(r,k) / max(D(r), 1)) · Wl(k,c)  +  Σₖ X(r,k) · Wr(k,c) )  +  B(c) ,  0 ).

  "entry" is that formula over the row of M, the row of X, the two weight columns, the degree and the bias entry
  it reads; "layer" reads them out of the arrays. "layerKeep" is the same with the degree kept as a 50000 × 1
  column and the bias as a 1 × 128 row, the forms a tiled evaluation is handed; a column or row that is the
  flat array re-shaped gives the same layer (layerKeep_cast). The constants 1 and 0 are kept as the f32 words
  the programs carry: both sides of the comparison carry the same words, so their values are never needed.
-/
import Idealize.ShloMosaic.PureOps.Ideal
import Idealize.ShloMosaic.Lib.ValueIdx
import Idealize.ShloMosaic.Lib.Pipeline.Value

noncomputable section

open scoped BigOperators

namespace Cert.SageLayer

open Idealize.ShloMosaic Idealize.ShloMosaic.ValueIdx

/-- The f32 word of 1.0 at the extended reals. -/
abbrev one : EReal := Ideal.ofBits .f32 0x3F800000#32
/-- The f32 word of 0.0 at the extended reals. -/
abbrev zero : EReal := Ideal.ofBits .f32 0x00000000#32

/-- One entry of the layer from what it reads: the aggregated row mrow, the node's own row xrow, the two weight
    columns wl and wr, the node's degree d and the bias entry b. -/
def entry (mrow xrow wl wr : Fin 128 → EReal) (d b : EReal) : EReal :=
  max (((∑ k : Fin 128, Ideal.div (mrow k) (max d one) * wl k) + ∑ k : Fin 128, xrow k * wr k) + b) zero

/-- The layer over the flat degree array and the flat bias. -/
def layer (M : (⟨2, ![50000, 128]⟩ : Shape).Idx → EReal) (D : (⟨1, ![50000]⟩ : Shape).Idx → EReal)
    (X : (⟨2, ![50000, 128]⟩ : Shape).Idx → EReal) (Wl Wr : (⟨2, ![128, 128]⟩ : Shape).Idx → EReal)
    (B : (⟨1, ![128]⟩ : Shape).Idx → EReal) : (⟨2, ![50000, 128]⟩ : Shape).Idx → EReal :=
  fun i => entry (fun k => M (ix2 (i 0) k)) (fun k => X (ix2 (i 0) k)) (fun k => Wl (ix2 k (i 1)))
    (fun k => Wr (ix2 k (i 1))) (D (ix1 (i 0))) (B (ix1 (i 1)))

/-- The layer over the degree as a column and the bias as a row. -/
def layerKeep (M : (⟨2, ![50000, 128]⟩ : Shape).Idx → EReal) (D2 : (⟨2, ![50000, 1]⟩ : Shape).Idx → EReal)
    (X : (⟨2, ![50000, 128]⟩ : Shape).Idx → EReal) (Wl Wr : (⟨2, ![128, 128]⟩ : Shape).Idx → EReal)
    (B2 : (⟨2, ![1, 128]⟩ : Shape).Idx → EReal) : (⟨2, ![50000, 128]⟩ : Shape).Idx → EReal :=
  fun i => entry (fun k => M (ix2 (i 0) k)) (fun k => X (ix2 (i 0) k)) (fun k => Wl (ix2 k (i 1)))
    (fun k => Wr (ix2 k (i 1))) (D2 (ix2 (i 0) 0)) (B2 (ix2 0 (i 1)))

/-- The layer over a degree column and a bias row, read at (r, q). -/
theorem layerKeep_apply (M : (⟨2, ![50000, 128]⟩ : Shape).Idx → EReal) (D2 : (⟨2, ![50000, 1]⟩ : Shape).Idx → EReal)
    (X : (⟨2, ![50000, 128]⟩ : Shape).Idx → EReal) (Wl Wr : (⟨2, ![128, 128]⟩ : Shape).Idx → EReal)
    (B2 : (⟨2, ![1, 128]⟩ : Shape).Idx → EReal) (r : Fin 50000) (q : Fin 128) :
    layerKeep M D2 X Wl Wr B2 (ix2 r q)
      = entry (fun k => M (ix2 r k)) (fun k => X (ix2 r k)) (fun k => Wl (ix2 k q)) (fun k => Wr (ix2 k q))
          (D2 (ix2 r 0)) (B2 (ix2 0 q)) := rfl

/-- The flat degree array re-shaped to a column, read at (r, 0), is the array at r. -/
theorem column_cast (D : (⟨1, ![50000]⟩ : Shape).Idx → EReal)
    (h : (⟨1, ![50000]⟩ : Shape).ShapeCasts ⟨2, ![50000, 1]⟩) (r : Fin 50000) :
    shapeCast ⟨2, ![50000, 1]⟩ D h (ix2 r 0) = D (ix1 r) :=
  shapeCast_apply D h (ix2 r 0) (ix1 r) (by
    rw [Shape.rowMajor_val_two, Shape.rowMajor_val_one]; show r.val = r.val * 1 + 0; omega)

/-- The flat bias re-shaped to a row, read at (0, c), is the bias at c. -/
theorem row_cast (B : (⟨1, ![128]⟩ : Shape).Idx → EReal)
    (h : (⟨1, ![128]⟩ : Shape).ShapeCasts ⟨2, ![1, 128]⟩) (c : Fin 128) :
    shapeCast ⟨2, ![1, 128]⟩ B h (ix2 0 c) = B (ix1 c) :=
  shapeCast_apply B h (ix2 0 c) (ix1 c) (by
    rw [Shape.rowMajor_val_two, Shape.rowMajor_val_one]; show c.val = 0 * 128 + c.val; omega)

/-- A degree column and a bias row that are the flat arrays re-shaped give the layer of the flat arrays. -/
theorem layerKeep_cast (M X : (⟨2, ![50000, 128]⟩ : Shape).Idx → EReal) (D : (⟨1, ![50000]⟩ : Shape).Idx → EReal)
    (Wl Wr : (⟨2, ![128, 128]⟩ : Shape).Idx → EReal) (B : (⟨1, ![128]⟩ : Shape).Idx → EReal)
    (hD : (⟨1, ![50000]⟩ : Shape).ShapeCasts ⟨2, ![50000, 1]⟩) (hB : (⟨1, ![128]⟩ : Shape).ShapeCasts ⟨2, ![1, 128]⟩) :
    layerKeep M (shapeCast ⟨2, ![50000, 1]⟩ D hD) X Wl Wr (shapeCast ⟨2, ![1, 128]⟩ B hB) = layer M D X Wl Wr B := by
  funext i
  exact congrArg₂ (entry (fun k => M (ix2 (i 0) k)) (fun k => X (ix2 (i 0) k)) (fun k => Wl (ix2 k (i 1)))
    (fun k => Wr (ix2 k (i 1)))) (column_cast D hD (i 0)) (row_cast B hB (i 1))

end Cert.SageLayer

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.BlockPayload.lean ====
/-
  What one grid point computes, entry by entry.

  At a grid point the body holds a 5000-row block of the aggregated sums (v0), the same rows of the degree
  column (v2) and of the node features (v9), the two whole weight matrices (v11, v13) and the bias row (v18).
  It divides each aggregated row by its degree clamped below at 1, rounds to bf16 (the identity on the
  extended reals), multiplies by the first weight matrix, adds the features times the second weight matrix,
  adds the bias row and clamps below at 0. Entry (p, c) of what it stores is therefore the layer's formula
  "entry" of row p of v0, row p of v9, column c of the two weight matrices, the degree v2(p, 0) and the bias
  v18(0, c): each matrix product into a zero accumulator is the plain sum over the 128 contracted positions,
  the degree column is spread along the row and the bias row down the column.
-/
import proofs.«101050_j14499809592153_2_alg».proof.Proof.Gen.KernelIdeal.Skeleton
import proofs.«101050_j14499809592153_2_alg».proof.Proof.Spec
import proofs.«101050_j14499809592153_2_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.SageLayer

/-- The printed dimension numbers of the block's two products are the plain ones: contract the second axis of
    a 5000 × 128 array with the first of a 128 × 128 array. -/
theorem dot_plain : dot_S5000x128_S128x128_S5000x128_1_0_0_1_n_n = DotDims.plain 5000 128 128 := rfl

/-- A product of the block into the zero accumulator, read at (p, c), is the sum over k of L(p,k) · R(k,c). -/
theorem product_apply {φ₁ φ₂ : FTy} (L : FVec Ideal S5000x128 φ₁) (R : FVec Ideal S128x128 φ₂) (p : Fin 5000) (c : Fin 128) :
    matmul dot_S5000x128_S128x128_S5000x128_1_0_0_1_n_n none L R (constant S5000x128 .f32 0x00000000#32) (ix2 p c)
      = ∑ k : Fin 128, L (ix2 p k) * R (ix2 k c) := by
  rw [dot_plain]
  exact Cert.Proof.PlainDot.matmul_plain_zero none L R (ix2 p c)

/-- A 5000 × 1 column spread along the rows, read at (p, k), is the column at (p, 0). -/
theorem column_spread (x : FVec Ideal S5000x1 .f32) (p : Fin 5000) (k : Fin 128) :
    broadcastTo S5000x128 x broadcasts_S5000x1_S5000x128 (ix2 p k) = x (ix2 p 0) :=
  broadcastTo_apply x broadcasts_S5000x1_S5000x128 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A 1 × 128 row spread down the columns, read at (p, c), is the row at (0, c). -/
theorem row_spread (x : FVec Ideal S1x128 .f32) (p : Fin 5000) (c : Fin 128) :
    broadcastTo S5000x128 x broadcasts_S1x128_S5000x128 (ix2 p c) = x (ix2 0 c) :=
  broadcastTo_apply x broadcasts_S1x128_S5000x128 (ix2 p c) (ix2 0 c) (fun a => match a with
    | ⟨0, _⟩ => by show 0 = if (1 : Nat) = 1 then 0 else p.val; rw [if_pos rfl]
    | ⟨1, _⟩ => by show c.val = if (128 : Nat) = 1 then 0 else c.val; rw [if_neg (by decide)])

/-- THE BLOCK'S STORED VALUE at (p, c) is the layer's entry of what it loaded. -/
theorem pay_apply (v0 : Vec Ideal S5000x128 .f32) (v2 : Vec Ideal S5000x1 .f32) (v9 : Vec Ideal S5000x128 .f32)
    (v11 v13 : Vec Ideal S128x128 .f32) (v18 : Vec Ideal S1x128 .f32) (p : Fin 5000) (c : Fin 128) :
    k0_pay1 v0 v2 v9 v11 v13 v18 (ix2 p c)
      = entry (fun k => v0 (ix2 p k)) (fun k => v9 (ix2 p k)) (fun k => v11 (ix2 k c)) (fun k => v13 (ix2 k c))
          (v2 (ix2 p 0)) (v18 (ix2 0 c)) := by
  unfold k0_pay1 entry
  dsimp only
  simp only [shapeCast_self]
  rw [maximumf_apply, addf_apply, addf_apply, product_apply, product_apply, row_spread]
  refine congrArg₂ max (congrArg₂ (· + ·) (congrArg₂ (· + ·) (Finset.sum_congr rfl fun k _ => ?_) rfl) rfl) rfl
  rw [truncf_apply, truncf_apply, divf_apply, column_spread, maximumf_apply]
  rfl

end Cert.KernelIdeal.Block

end
-- ==== Proof.BlockReads.lean ====
/-
  Each operand's block at a grid point, read at an index.

  The launch walks ten grid points. At point t the three row-tiled operands (message sums, degree column,
  features) are on block (t, 0) — rows 5000·t … 5000·t + 4999 — and the two weight matrices and the bias row on
  block (0, 0), which is the whole array. An entry of a block is the entry of the array at block index × block
  size + the coordinate inside the block, axis by axis. The contents of the arrays play no part in this, so the
  facts are stated for ANY contents A of the program's arrays; the contents the launch actually finds are put in
  at the very end (block_found).
-/
import proofs.«101050_j14499809592153_2_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.BlockReads

open Cert.KernelIdeal Cert.KernelIdeal.Gen
open Idealize.ShloMosaic Idealize.ShloMosaic.TcCoe Idealize.SL.Sem Idealize.ShloMosaic.ValueIdx

/-- The block each window is on at grid point t, decided over the ten points: the three row-tiled operands and
    the result are on block (t, 0), the weights and the bias on block (0, 0). -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable {c : Dev nD} (A : (b : Ref sig .tc) → Buf (Elt Ideal) ((c : Thread nD τ).loc b))

/-- Window w's block at point t, read off its array at the contents A. -/
def blockOf (w : Fin cfg0.W) (t : Fin cfg0.N) : ((cfg0.win w).xblock (cfg0.grid.coords t)).Idx → Elt Ideal (cfg0.win w).elt :=
  ((cfg0.win w).blk t).view.read (Elt Ideal) (A (Pipeline.arrRef spec0 w))

/-- The message sums' block at point t holds rows 5000·t + p. -/
theorem sums_block (t : Fin cfg0.N) (p : Fin 5000) (k : Fin 128) (r : Fin 50000) (hr : r.val = t.val * 5000 + p.val) :
    (blockOf A 0 t : Vec Ideal S5000x128 .f32) (ix2 p k) = (A main_v18 : S50000x128.Idx → EReal) (ix2 r k) := by
  obtain ⟨e0, e1, -⟩ := block_of_point t
  unfold blockOf
  rw [View.read_apply]
  refine congrArg (A main_v18) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The degree column's block at point t holds rows 5000·t + p. -/
theorem degree_block (t : Fin cfg0.N) (p : Fin 5000) (r : Fin 50000) (hr : r.val = t.val * 5000 + p.val) :
    (blockOf A 1 t : Vec Ideal S5000x1 .f32) (ix2 p 0) = (A main_v28 : S50000x1.Idx → EReal) (ix2 r 0) := by
  obtain ⟨-, -, e0, e1, -⟩ := block_of_point t
  unfold blockOf
  rw [View.read_apply]
  refine congrArg (A main_v28) (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- The features' block at point t holds rows 5000·t + p. -/
theorem features_block (t : Fin cfg0.N) (p : Fin 5000) (k : Fin 128) (r : Fin 50000) (hr : r.val = t.val * 5000 + p.val) :
    (blockOf A 2 t : Vec Ideal S5000x128 .f32) (ix2 p k) = (A main_arg0 : S50000x128.Idx → EReal) (ix2 r k) := by
  obtain ⟨-, -, -, -, e0, e1, -⟩ := block_of_point t
  unfold blockOf
  rw [View.read_apply]
  refine congrArg (A main_arg0) (funext fun a => Fin.ext ?_)
  match a with
  | ⟨0, _⟩ => show win0_2.index t (0 : Fin 2) * 5000 + 1 * p.val = r.val; omega
  | ⟨1, _⟩ => show win0_2.index t (1 : Fin 2) * 128 + 1 * k.val = k.val; omega

/-- The first weight matrix is handed whole at every point. -/
theorem left_block (t : Fin cfg0.N) (k q : Fin 128) :
    (blockOf A 3 t : Vec Ideal S128x128 .f32) (ix2 k q) = (A main_arg2 : S128x128.Idx → EReal) (ix2 k q) := by
  obtain ⟨-, -, -, -, -, -, e0, e1, -⟩ := block_of_point t
  unfold blockOf
  rw [View.read_apply]
  refine congrArg (A main_arg2) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second weight matrix is handed whole at every point. -/
theorem right_block (t : Fin cfg0.N) (k q : Fin 128) :
    (blockOf A 4 t : Vec Ideal S128x128 .f32) (ix2 k q) = (A main_arg3 : S128x128.Idx → EReal) (ix2 k q) := by
  obtain ⟨-, -, -, -, -, -, -, -, e0, e1, -⟩ := block_of_point t
  unfold blockOf
  rw [View.read_apply]
  refine congrArg (A main_arg3) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The bias row is handed whole at every point. -/
theorem bias_block (t : Fin cfg0.N) (q : Fin 128) :
    (blockOf A 5 t : Vec Ideal S1x128 .f32) (ix2 0 q) = (A main_v29 : S1x128.Idx → EReal) (ix2 0 q) := by
  obtain ⟨-, -, -, -, -, -, -, -, -, -, e0, e1, -⟩ := block_of_point t
  unfold blockOf
  rw [View.read_apply]
  refine congrArg (A main_v29) (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- The block the launch finds is the block of the contents it finds. -/
theorem block_found (m : (ℓ : Loc nD τ sig) → Buf (Elt Ideal) ℓ) (c : Dev nD) (w : Fin cfg0.W) (t : Fin cfg0.N) :
    iblk m c w t = blockOf (V m c) w t := rfl

end Cert.KernelIdeal.BlockReads

end
-- ==== Proof.Whole.lean ====
/-
  From the blocks to the whole array.

  The launch walks ten grid points; point t is handed rows 5000·t … 5000·t + 4999 of the message sums, of the
  degree column and of the features, the two whole weight matrices and the bias row, and writes back rows
  5000·t … 5000·t + 4999 of the result. With each operand's block read as rows of its array, entry (p, c) of
  what point t writes is the layer's entry at row r = 5000·t + p, so point t writes back exactly block t of ONE
  whole-array function: the layer evaluated over the arrays the launch was handed. This is arithmetic on
  positions only, so it is shown for any contents A of the arrays (stored_entry, written_block) and the contents
  the launch finds are put in last. The ten blocks tile the 50000 rows (row r lies in block r / 5000), so after
  the run the result array is that function.
-/
import proofs.«101050_j14499809592153_2_alg».proof.Proof.Gen.KernelIdeal.Value
import proofs.«101050_j14499809592153_2_alg».proof.Proof.BlockPayload
import proofs.«101050_j14499809592153_2_alg».proof.Proof.BlockReads
import proofs.«101050_j14499809592153_2_alg».proof.Proof.Spec
import Idealize.ShloMosaic.Lib.Pipeline.Value

noncomputable section

namespace Cert.KernelIdeal.Whole

open Cert.KernelIdeal Cert.KernelIdeal.Gen Cert.KernelIdeal.Value Cert.KernelIdeal.Block Cert.KernelIdeal.BlockReads Cert.SageLayer
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-! ## What a point writes back, for any contents of the arrays -/

section AnyContents

variable {c : Dev nD} (A : (b : Ref sig .tc) → Buf (Elt Ideal) ((c : Thread nD τ).loc b))

/-- The layer evaluated over the arrays the launch reads, at the contents A. -/
abbrev over : S50000x128.Idx → EReal :=
  layerKeep (A main_v18) (A main_v28) (A main_arg0) (A main_arg2) (A main_arg3) (A main_v29)

/-- Entry (p, q) of what point t stores is the layer at row 5000·t + p. -/
theorem stored_entry (t : Fin cfg0.N) (p : Fin 5000) (q : Fin 128) (r : Fin 50000) (hr : r.val = t.val * 5000 + p.val) :
    k0_pay1 (blockOf A 0 t) (blockOf A 1 t) (blockOf A 2 t) (blockOf A 3 t) (blockOf A 4 t) (blockOf A 5 t) (ix2 p q)
      = over A (ix2 r q) := by
  refine (pay_apply (blockOf A 0 t) (blockOf A 1 t) (blockOf A 2 t) (blockOf A 3 t) (blockOf A 4 t) (blockOf A 5 t) p q).trans ?_
  refine Eq.trans ?_ (layerKeep_apply (A main_v18) (A main_v28) (A main_arg0) (A main_arg2) (A main_arg3) (A main_v29) r q).symm
  have h0 : (fun k : Fin 128 => (blockOf A 0 t : Vec Ideal S5000x128 .f32) (ix2 p k)) = fun k => (A main_v18 : S50000x128.Idx → EReal) (ix2 r k) :=
    funext fun k => sums_block A t p k r hr
  have h2 : (fun k : Fin 128 => (blockOf A 2 t : Vec Ideal S5000x128 .f32) (ix2 p k)) = fun k => (A main_arg0 : S50000x128.Idx → EReal) (ix2 r k) :=
    funext fun k => features_block A t p k r hr
  have h3 : (fun k : Fin 128 => (blockOf A 3 t : Vec Ideal S128x128 .f32) (ix2 k q)) = fun k => (A main_arg2 : S128x128.Idx → EReal) (ix2 k q) :=
    funext fun k => left_block A t k q
  have h4 : (fun k : Fin 128 => (blockOf A 4 t : Vec Ideal S128x128 .f32) (ix2 k q)) = fun k => (A main_arg3 : S128x128.Idx → EReal) (ix2 k q) :=
    funext fun k => right_block A t k q
  rw [h0, h2, h3, h4, degree_block A t p r hr, bias_block A t q]

/-- What point t writes back — its stored block, cut to the array — is block t of the layer. -/
theorem written_block (t : Fin cfg0.N) :
    (cfg0.win 6).cut (grid0.coords t)
        (k0_pay1 (blockOf A 0 t) (blockOf A 1 t) (blockOf A 2 t) (blockOf A 3 t) (blockOf A 4 t) (blockOf A 5 t))
      = ((cfg0.win 6).blk t).view.read (Elt Ideal) (over A) := by
  funext j
  rw [View.read_apply]
  have hj0 : (j 0).val < 5000 := (j 0).isLt
  have hj1 : (j 1).val < 128 := (j 1).isLt
  obtain ⟨-, -, -, -, -, -, -, -, -, -, -, -, e0, e1⟩ := block_of_point t
  have ht : t.val < 10 := lt_of_lt_of_eq t.isLt N_0
  have hx : (cfg0.win 6).xinj (grid0.coords t) j = ix2 (⟨(j 0).val, hj0⟩ : Fin 5000) (⟨(j 1).val, hj1⟩ : Fin 128) :=
    funext fun a => Fin.ext (by match a with | ⟨0, _⟩ => rfl | ⟨1, _⟩ => rfl)
  have hemb : ((cfg0.win 6).blk t).view.emb j
      = ix2 (⟨t.val * 5000 + (j 0).val, by omega⟩ : Fin 50000) (⟨(j 1).val, hj1⟩ : Fin 128) :=
    funext fun a => Fin.ext (by
      match a with
      | ⟨0, _⟩ => show win0_6.index t (0 : Fin 2) * 5000 + 1 * (j 0).val = t.val * 5000 + (j 0).val; omega
      | ⟨1, _⟩ => show win0_6.index t (1 : Fin 2) * 128 + 1 * (j 1).val = (j 1).val; omega)
  show k0_pay1 (blockOf A 0 t) (blockOf A 1 t) (blockOf A 2 t) (blockOf A 3 t) (blockOf A 4 t) (blockOf A 5 t)
      ((cfg0.win 6).xinj (grid0.coords t) j) = over A (((cfg0.win 6).blk t).view.emb j)
  rw [hx, hemb]
  exact stored_entry A t _ _ _ rfl

end AnyContents

/-! ## The blocks tile the array -/

/-- An index of the result is in point t's block iff each coordinate is in the block's range on its axis. -/
theorem mem_block (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v30).slice (win0_6.rect t)).set ↔ _
  rw [View.set_slice_whole, Rect.mem_set_unit]
  exact Iff.rfl

/-- Row r of the result lies in the block of point r / 5000, which writes back. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hlt : (i 0).val / 5000 < cfg0.N := by rw [show cfg0.N = 10 from N_0]; omega
  obtain ⟨-, -, -, -, -, -, -, -, -, -, -, -, e0, e1⟩ := block_of_point ⟨(i 0).val / 5000, hlt⟩
  refine ⟨⟨(i 0).val / 5000, hlt⟩, flush0_6 _, ?_⟩
  rw [mem_block]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]
    omega

/-! ## The run -/

variable (m : (ℓ : Loc nD τ sig) → Buf (Elt Ideal) ℓ) (ρ : Dev nD → PrngReg)

/-- The layer evaluated over the arrays the launch is handed. -/
abbrev handed (c : Dev nD) : S50000x128.Idx → EReal := over (V m c)

/-- WHAT POINT t WRITES BACK is block t of the layer over the arrays handed. -/
theorem flushed_eq (c : Dev nD) (t : Fin cfg0.N) :
    (dats m 0 c).flushed 6 t = ((cfg0.win 6).blk t).view.read (Elt Ideal) (handed m c) := by
  rw [flushed6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  rw [block_found m c 0 t, block_found m c 1 t, block_found m c 2 t, block_found m c 3 t, block_found m c 4 t,
    block_found m c 5 t]
  exact written_block (V m c) t

/-- THE RESULT ARRAY after the run is the layer over the arrays the launch was handed. -/
theorem final (c : Dev nD) : (dats m 0 c).arrAt 6 cfg0.N = handed m c :=
  (dats m 0 c).arrAt_eq_of_cover 6 (handed m c) (fun t _ => flushed_eq m c t) covered

/-- The run, read: the result array at the layer over the arrays handed, the arguments unchanged. -/
theorem run : θ_run defs (onTc (τ := τ) (main (F := Ideal))) ⟨m, fun _ => 0, ρ⟩ fun r => ∀ c : Dev nD,
      r.2.mem ((c : Thread nD τ).loc main_v30) = handed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefLayer.lean ====
/-
  The reference computes the layer.

  The reference's result, read one operation at a time from the last one back, is at entry (r, c)

      max ( ( Σₖ (M(r,k) / max(D(r), 1)) · Wl(k,c)  +  Σₖ X(r,k) · Wr(k,c) )  +  B(c) ,  0 )

  with M its scatter-added message sums and D its scatter-added edge counts: the two matrix products are plain
  sums over the 128 contracted positions, the clamped degree is spread first to a column and then along the
  row, the bias first to a row and then down the column, and the final maximum is against a zero array. The
  message sums and the degrees themselves are not opened: they enter only as arrays.
-/
import proofs.«101050_j14499809592153_2_alg».proof.Proof.Gen.ReferenceIdeal.Read
import proofs.«101050_j14499809592153_2_alg».proof.Proof.Spec

noncomputable section

open scoped BigOperators

namespace Cert.ReferenceIdeal.RefLayer

open Idealize.ShloMosaic Idealize.ShloMosaic.ValueIdx Cert.ReferenceIdeal Cert.ReferenceIdeal.Read Cert.SageLayer

/-- THE REFERENCE'S RESULT is the layer of its message sums, its degrees, the features, the weights and the bias. -/
theorem ref_layer (x0 : (⟨S50000x128, .f32⟩ : BufTy).Contents (Elt Ideal)) (x1 : (⟨S2x600000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4
      = layer (val_main_v13 (F := Ideal) x0 x1) (val_main_v17 (F := Ideal) x1) x0 x2 x3 x4 := by
  funext i
  obtain ⟨r, c, rfl⟩ : ∃ (r : Fin 50000) (c : Fin 128), i = ix2 r c := ⟨i 0, i 1, eq_ix2 i⟩
  show _ = entry (fun k => val_main_v13 (F := Ideal) x0 x1 (ix2 r k)) (fun k => x0 (ix2 r k)) (fun k => x2 (ix2 k c))
    (fun k => x3 (ix2 k c)) (val_main_v17 (F := Ideal) x1 (ix1 r)) (x4 (ix1 c))
  unfold entry
  have eL : ∀ k : Fin 128, lidx_main_v23 (ix2 r c) k = ix2 r k := fun k =>
    funext fun a => Fin.ext (by match a with | ⟨0, _⟩ => rfl | ⟨1, _⟩ => rfl)
  have eR : ∀ k : Fin 128, ridx_main_v23 (ix2 r c) k = ix2 k c := fun k =>
    funext fun a => Fin.ext (by match a with | ⟨0, _⟩ => rfl | ⟨1, _⟩ => rfl)
  have eL' : ∀ k : Fin 128, lidx_main_v24 (ix2 r c) k = ix2 r k := fun k =>
    funext fun a => Fin.ext (by match a with | ⟨0, _⟩ => rfl | ⟨1, _⟩ => rfl)
  have eR' : ∀ k : Fin 128, ridx_main_v24 (ix2 r c) k = ix2 k c := fun k =>
    funext fun a => Fin.ext (by match a with | ⟨0, _⟩ => rfl | ⟨1, _⟩ => rfl)
  have eD : ∀ k : Fin 128, idx_main_v20 (idx_main_v21 (ix2 r k)) = ix1 r := fun k =>
    funext fun a => Fin.ext (by match a with | ⟨0, _⟩ => rfl)
  have eB : idx_main_v26 (idx_main_v27 (ix2 r c)) = ix1 c :=
    funext fun a => Fin.ext (by match a with | ⟨0, _⟩ => rfl)
  rw [val_main_v29_apply, val_main_v28_apply, val_main_v25_apply, val_main_v23_apply, val_main_v24_apply,
    val_main_v27_apply, val_main_v26_apply, val_main_call0_v0_apply, val_main_call0_cst_apply, eB]
  refine congrArg₂ max (congrArg₂ (· + ·) (congrArg₂ (· + ·) (Finset.sum_congr rfl fun k _ => ?_)
    (Finset.sum_congr rfl fun k _ => ?_)) rfl) rfl
  · rw [eL k, eR k, val_main_v22_apply, val_main_v21_apply, val_main_v20_apply, val_main_v19_apply,
      val_main_v18_apply, val_main_cst_3_apply, eD k]
    rfl
  · rw [eL' k, eR' k]

end Cert.ReferenceIdeal.RefLayer

end
-- ==== Proof.Found.lean ====
/-
  What the tiled evaluation is handed: the arrays the host prepares before the launch.

  Before the launch the host splits the edge list into its source row and its destination row, normalises each
  ( where (v < 0) (v + 50000) v , so that -1 would name the last node), gathers the source nodes' feature rows,
  scatter-adds them onto the destination nodes (the message sums, from zeros) and scatter-adds a 1 per edge onto
  the destination nodes (the degrees, from zeros), re-shapes the degrees to a column and the bias to a row.
  These are read back here as pure terms of the argument arrays. The gather and the two scatter-adds are never
  opened: they are carried as the arrays they produce.
-/
import proofs.«101050_j14499809592153_2_alg».proof.Proof.Gen.KernelIdeal.Frame
import Idealize.ShloMosaic.Lib.StableHlo.Run
import Idealize.ShloMosaic.PureOps.Ideal

noncomputable section

namespace Cert.KernelIdeal.Found

open Idealize.ShloMosaic Idealize.ShloMosaic.TcCoe Idealize.SL.Sem Idealize.ShloMosaic.StableHlo
open Cert.KernelIdeal Cert.KernelIdeal.Gen

/-- The source row of the edge list, as one axis of 600000 entries. -/
def src (a1 : IVec S2x600000 32) : IVec S600000 32 :=
  shapeCast S600000 (extractStridedSlice S1x600000 ![0, 0] a1 slices_S2x600000_S1x600000_0_0) shapeCasts_S1x600000_S600000

/-- The destination row of the edge list, as one axis of 600000 entries. -/
def dst (a1 : IVec S2x600000 32) : IVec S600000 32 :=
  shapeCast S600000 (extractStridedSlice S1x600000 ![1, 0] a1 slices_S2x600000_S1x600000_1_0) shapeCasts_S1x600000_S600000

/-- The zero index array and the array of the node count. -/
def zeros : IVec S600000 32 := broadcastInDim S600000 ![] bcast_S_S600000 (constantI S_ 32 0#32)
def counts : IVec S600000 32 := broadcastInDim S600000 ![] bcast_S_S600000 (constantI S_ 32 50000#32)

/-- The normalisation of an index array: a negative index counts from the end. -/
def wrap (v : IVec S600000 32) : IVec S600000 32 := select (cmpi .slt v zeros) (addi v counts) v

/-- An index array as the one-column index list a gather or a scatter takes. -/
def asColumn (v : IVec S600000 32) : IVec S600000x1 32 := broadcastInDim S600000x1 ![0] bcast_S600000_S600000x1_0 v

/-- The source nodes' feature rows, one per edge. -/
def messages (a0 : FVec Ideal S50000x128 .f32) (a1 : IVec S2x600000 32) : FVec Ideal S600000x128 .f32 :=
  Host.gather gather_S50000x128_S600000x1_S600000x128_1_0_n_n_0_1_1128 a0 (asColumn (wrap (src a1)))

/-- The message sums: the messages scatter-added from zeros onto the nodes the index array names. -/
def msgSum (idx : IVec S600000 32) (a0 : FVec Ideal S50000x128 .f32) (a1 : IVec S2x600000 32) : FVec Ideal S50000x128 .f32 :=
  Host.scatterAdd scatter_S50000x128_S600000x1_S600000x128_1_0_0_1
    (broadcastInDim S50000x128 ![] bcast_S_S50000x128 (constant S_ .f32 0x00000000#32)) (asColumn idx) (messages a0 a1)

/-- The degrees: a 1 per edge scatter-added from zeros onto the nodes the index array names. -/
def degree (idx : IVec S600000 32) : FVec Ideal S50000 .f32 :=
  Host.scatterAdd scatter_S50000_S600000x1_S600000_n_0_0_1
    (broadcastInDim S50000 ![] bcast_S_S50000 (constant S_ .f32 0x00000000#32)) (asColumn idx)
    (broadcastInDim S600000 ![] bcast_S_S600000 (constant S_ .f32 0x3F800000#32))

variable (m : (ℓ : Loc nD τ sig) → Buf (Elt Ideal) ℓ)

set_option maxHeartbeats 2000000 in
/-- The first operand of the launch is the message sums at the normalised destination row. -/
theorem found_msg (c : Dev nD) :
    (V m c main_v18 : S50000x128.Idx → EReal)
      = msgSum (wrap (dst (m ((c : Thread nD τ).loc main_arg1)))) (m ((c : Thread nD τ).loc main_arg0)) (m ((c : Thread nD τ).loc main_arg1)) := by
  show StableHlo.after hostOps0 (fun b => m (c, b)) (Proc.devRef .tc main_v18) = _
  after_results_simp <;> rfl

set_option maxHeartbeats 2000000 in
/-- The second operand of the launch is the degrees at the normalised destination row, as a column. -/
theorem found_deg (c : Dev nD) :
    (V m c main_v28 : S50000x1.Idx → EReal)
      = shapeCast S50000x1 (degree (wrap (dst (m ((c : Thread nD τ).loc main_arg1))))) shapeCasts_S50000_S50000x1 := by
  show StableHlo.after hostOps0 (fun b => m (c, b)) (Proc.devRef .tc main_v28) = _
  after_results_simp <;> rfl

set_option maxHeartbeats 2000000 in
/-- The last operand of the launch is the bias, as a row. -/
theorem found_bias (c : Dev nD) :
    (V m c main_v29 : S1x128.Idx → EReal)
      = shapeCast S1x128 (m ((c : Thread nD τ).loc main_arg4) : S128.Idx → EReal) shapeCasts_S128_S1x128 := by
  show StableHlo.after hostOps0 (fun b => m (c, b)) (Proc.devRef .tc main_v29) = _
  after_results_simp <;> rfl

end Cert.KernelIdeal.Found

end
-- ==== Proof.LibIndexWrap.lean ====
/-
  Integer index arrays: what a signed "non-negative" test says at an index, and that the normalisation of a
  negative index leaves a non-negative index as it is.

  An index array v is normalised as  where (v < 0) (v + n) v  (n the extent of the axis indexed), so that -1
  names the last position. Where the index is already non-negative the normalised index is the index itself;
  a program that normalises and one that does not then read, and write, the same positions. The facts are
  stated at one index of arrays of any shape and width: the comparand only has to be the zero word THERE,
  which a broadcast zero is everywhere.
-/
import Idealize.ShloMosaic.Lib.ValueIdx
import Idealize.ShloMosaic.Lib.Affine

namespace Cert.IndexWrap

open Idealize.ShloMosaic

variable {s : Shape} {w : Nat}

/-- The signed test  v ≥ z  holding at an index where z is the zero word says the index there, read signed,
    is non-negative. -/
theorem nonneg_of_sge (v z : IVec s w) (i : s.Idx) (hz : z i = 0#w) (h : cmpi .sge v z i = 1#1) :
    0 ≤ (v i).toInt := by
  have h' : (z i).toInt ≤ (v i).toInt := IntOp.cmpi_sge.1 h
  rw [hz, BitVec.toInt_zero] at h'
  exact h'

/-- The signed test  v < z  at an index where z is the zero word and v is non-negative is the word 0. -/
theorem slt_eq_zero_of_nonneg (v z : IVec s w) (i : s.Idx) (hz : z i = 0#w) (hv : 0 ≤ (v i).toInt) :
    cmpi .slt v z i = 0#1 := by
  rcases BitVec.eq_zero_or_eq_one (cmpi .slt v z i) with h0 | h1
  · exact h0
  · have h' : (v i).toInt < (z i).toInt := IntOp.cmpi_slt.1 h1
    rw [hz, BitVec.toInt_zero] at h'
    omega

/-- THE NORMALISATION OF A NON-NEGATIVE INDEX IS THE INDEX:  where (v < 0) (v + n) v  at an index where v,
    read signed, is non-negative, is v there — whatever n is. -/
theorem wrap_of_nonneg (v z n : IVec s w) (i : s.Idx) (hz : z i = 0#w) (hv : 0 ≤ (v i).toInt) :
    select (cmpi .slt v z) (addi v n) v i = v i := by
  show Scalar.select (cmpi .slt v z i) (addi v n i) (v i) = v i
  rw [slt_eq_zero_of_nonneg v z i hz hv]
  exact if_neg (by decide)

/-- The same for the whole array, when the comparand is zero and the index non-negative everywhere. -/
theorem wrap_eq_self (v z n : IVec s w) (hz : ∀ i, z i = 0#w) (hv : ∀ i, 0 ≤ (v i).toInt) :
    select (cmpi .slt v z) (addi v n) v = v :=
  funext fun i => wrap_of_nonneg v z n i (hz i) (hv i)

end Cert.IndexWrap
-- ==== Proof.Domain.lean ====
/-
  The domain of the claim: every destination index is non-negative.

  The precondition is the conjunction of five tests, the last of them  all (edge_index[1] ≥ 0)  — row 1 of the
  edge list, flattened to one axis, compared signed against a zero array and reduced by "and". When the
  conjunction is the word 1 each conjunct is, an "and"-reduction that is 1 met only 1s, and a signed test
  v ≥ 0 that holds says the word, read signed, is non-negative. So under the precondition every entry of the
  destination row is a non-negative integer.
-/
import proofs.«101050_j14499809592153_2_alg».proof.Pre_finite_inputs
import proofs.«101050_j14499809592153_2_alg».proof.Proof.LibIndexWrap
import Idealize.ShloMosaic.Lib.ReduceAll
import Idealize.ShloMosaic.Lib.ValueIdx

noncomputable section

namespace Cert.Pre_finite_inputs.Domain

open Idealize.ShloMosaic Cert.Pre_finite_inputs Cert.Pre_finite_inputs.Facts

variable {F : FTy → Type} [FloatOps F] [Cert.Pre_finite_inputs.Facts]

/-- A shape of rank 0 has one index. -/
instance : Subsingleton S_.Idx := ⟨fun _ _ => funext fun d => d.elim0⟩

/-- The destination row of the edge list: row 1 of the 2 × 600000 index array, as one axis of 600000 entries. -/
def dst (a1 : IVec S2x600000 32) : IVec S600000 32 :=
  shapeCast S600000 (extractStridedSlice S1x600000 ![1, 0] a1 slices_S2x600000_S1x600000_1_0) shapeCasts_S1x600000_S600000

/-- Under the precondition every destination index, read signed, is non-negative. -/
theorem dst_nonneg (a0 : FVec F S50000x128 .f32) (a1 : IVec S2x600000 32) (a2 a3 : FVec F S128x128 .f32)
    (a4 : FVec F S128 .f32) (h : fn (F := F) a0 a1 a2 a3 a4 = fun _ => 1#1) (i : S600000.Idx) :
    0 ≤ (dst a1 i).toInt := by
  have h0 := congrFun h ValueIdx.ix0
  dsimp only [fn, fn_part1] at h0
  have h1 := (IntOp.andi_eq_one.1 h0).2
  have h2 := Host.reduce_andi_all _ _ _ _ _ h1 i
  exact Cert.IndexWrap.nonneg_of_sge _ _ i rfl h2

end Cert.Pre_finite_inputs.Domain

end
-- ==== Proof.Join.lean ====
/-
  The two programs hand the layer the same arrays.

  Both programs gather the same messages (they normalise the source row in the same way). They differ in the
  destination row: one scatter-adds at the normalised destinations, the other at the destinations as given.
  Where every destination is non-negative the normalisation changes nothing, so the two index lists are one
  list, and the message sums and the degrees — the same scatter-adds of the same updates at the same indices —
  are the same arrays. The layer over the arrays the launch is handed (the degree as a column, the bias as a
  row) is then the layer of the other program's message sums and degrees.
-/
import proofs.«101050_j14499809592153_2_alg».proof.Proof.Found
import proofs.«101050_j14499809592153_2_alg».proof.Proof.Whole
import proofs.«101050_j14499809592153_2_alg».proof.Proof.Domain
import proofs.«101050_j14499809592153_2_alg».proof.Proof.Spec
import proofs.«101050_j14499809592153_2_alg».proof.Proof.LibIndexWrap
import proofs.«101050_j14499809592153_2_alg».proof.Proof.Gen.ReferenceIdeal.Read
import proofs.«101050_j14499809592153_2_alg».proof.Proof.Gen.Pre_finite_inputs

noncomputable section

namespace Cert.Proof.Join

open Idealize.ShloMosaic Idealize.ShloMosaic.TcCoe Idealize.SL.Sem
open Cert.KernelIdeal.Found Cert.SageLayer

/-- The normalisation leaves a destination row of non-negative entries as it is. -/
theorem wrap_dst (a1 : IVec Cert.KernelIdeal.S2x600000 32) (h : ∀ i, 0 ≤ (dst a1 i).toInt) : wrap (dst a1) = dst a1 :=
  Cert.IndexWrap.wrap_eq_self (dst a1) zeros counts (fun _ => rfl) h

/-- At the destinations as given, the message sums handed to the launch are the other program's. -/
theorem msgSum_ref (a0 : FVec Ideal Cert.KernelIdeal.S50000x128 .f32) (a1 : IVec Cert.KernelIdeal.S2x600000 32) :
    msgSum (dst a1) a0 a1 = Cert.ReferenceIdeal.Read.val_main_v13 (F := Ideal) a0 a1 := rfl

/-- At the destinations as given, the degrees handed to the launch are the other program's. -/
theorem degree_ref (a1 : IVec Cert.KernelIdeal.S2x600000 32) :
    degree (dst a1) = Cert.ReferenceIdeal.Read.val_main_v17 (F := Ideal) a1 := rfl

open Cert.KernelIdeal Cert.KernelIdeal.Gen in
/-- THE LAYER THE LAUNCH EVALUATES, under the precondition, is the layer of the other program's message sums and
    degrees over the argument arrays. -/
theorem handed_eq (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Cert.KernelIdeal.Whole.handed m c
      = layer (Cert.ReferenceIdeal.Read.val_main_v13 (F := Ideal) (m ((c : Thread nD τ).loc main_arg0)) (m ((c : Thread nD τ).loc main_arg1)))
          (Cert.ReferenceIdeal.Read.val_main_v17 (F := Ideal) (m ((c : Thread nD τ).loc main_arg1)))
          (m ((c : Thread nD τ).loc main_arg0)) (m ((c : Thread nD τ).loc main_arg2)) (m ((c : Thread nD τ).loc main_arg3))
          (m ((c : Thread nD τ).loc main_arg4)) := by
  have hd : ∀ i, 0 ≤ (dst (m ((c : Thread nD τ).loc main_arg1)) i).toInt :=
    fun i => Cert.Pre_finite_inputs.Domain.dst_nonneg _ _ _ _ _ hpre i
  show layerKeep (V m c main_v18) (V m c main_v28) (V m c main_arg0) (V m c main_arg2) (V m c main_arg3) (V m c main_v29) = _
  rw [found_msg m c, found_deg m c, found_bias m c, V_main_arg0 m c, V_main_arg2 m c, V_main_arg3 m c, wrap_dst _ hd,
    msgSum_ref, degree_ref]
  exact layerKeep_cast _ _ _ _ _ _ _ _

end Cert.Proof.Join

end
-- ==== Proof.lean ====
/-
  One SAGE convolution layer with mean aggregation: a tiled evaluation against the plain one.

  Both programs take the node features X (50000 × 128), the edge list (2 × 600000 integers: a source row and a
  destination row), two 128 × 128 weight matrices and a bias. Both gather the source nodes' feature rows,
  scatter-add them onto the destination nodes (message sums M) and scatter-add a 1 per edge (degrees D), and
  both then compute, entry by entry,

      max ( ( Σₖ (M(r,k) / max(D(r), 1)) · Wl(k,c)  +  Σₖ X(r,k) · Wr(k,c) )  +  B(c) ,  0 ),

  one of them in ten row blocks of 5000 with the factors rounded to bf16 on the way into the products (the
  identity on the extended reals), the other on whole arrays. The two differ only in how a NEGATIVE destination
  index is treated: the tiled program normalises it (-1 names the last node), the plain one scatters at it as
  given, where it falls outside the array and the update is dropped. The precondition therefore says, beside the
  finiteness of the float inputs, that every destination index is non-negative; then the normalisation is the
  identity, both programs scatter the same updates at the same indices, and the message sums and degrees are
  the same arrays, which are never opened. What remains is that the ten blocks written back are the ten row
  blocks of the one whole-array formula, and that the plain program's operations compose to that formula; the
  sums are associated in the same way on both sides, so no law of the extended reals beyond reflexivity is
  used and the finiteness of the inputs is not needed.

  The three frames are the programs' runs with the results dropped. The statement relating the tiled program to
  its idealization lists no rewrite for this pair — it is the proposition True — and is closed as such.
-/
import proofs.«101050_j14499809592153_2_alg».proof.Defs
import proofs.«101050_j14499809592153_2_alg».proof.Proof.Gen.Kernel
import proofs.«101050_j14499809592153_2_alg».proof.Proof.Gen.Kernel.Frame
import proofs.«101050_j14499809592153_2_alg».proof.Proof.Gen.KernelIdeal
import proofs.«101050_j14499809592153_2_alg».proof.Proof.Gen.KernelIdeal.Frame
import proofs.«101050_j14499809592153_2_alg».proof.Proof.Gen.KernelIdeal.Value
import proofs.«101050_j14499809592153_2_alg».proof.Proof.Gen.ReferenceIdeal
import proofs.«101050_j14499809592153_2_alg».proof.Proof.Gen.ReferenceIdeal.Run
import proofs.«101050_j14499809592153_2_alg».proof.Proof.Gen.ReferenceIdeal.Read
import proofs.«101050_j14499809592153_2_alg».proof.Proof.Gen.Pre_finite_inputs
import proofs.«101050_j14499809592153_2_alg».proof.Proof.Whole
import proofs.«101050_j14499809592153_2_alg».proof.Proof.RefLayer
import proofs.«101050_j14499809592153_2_alg».proof.Proof.Join
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The plain program's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Under the precondition the tiled program ends with the layer of the message sums and degrees — spelt as the
    plain program computes them — over the argument arrays, and the arguments unchanged. -/
theorem tiled_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v30)
          = Cert.SageLayer.layer
              (Cert.ReferenceIdeal.Read.val_main_v13 (F := Ideal) (m ((c.tc : Thread Cert.KernelIdeal.nD Cert.KernelIdeal.τ).loc Cert.KernelIdeal.main_arg0))
                (m ((c.tc : Thread Cert.KernelIdeal.nD Cert.KernelIdeal.τ).loc Cert.KernelIdeal.main_arg1)))
              (Cert.ReferenceIdeal.Read.val_main_v17 (F := Ideal) (m ((c.tc : Thread Cert.KernelIdeal.nD Cert.KernelIdeal.τ).loc Cert.KernelIdeal.main_arg1)))
              (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run Cert.KernelIdeal.defs _ _).mono
    (fun _ h c => ⟨(h c).1.trans (Cert.Proof.Join.handed_eq m c (hpre c)), (h c).2⟩)
    (Cert.KernelIdeal.Whole.run m ρ)

/-- From memories agreeing on the arguments both programs end with the layer of the same message sums and
    degrees over the same arrays: the tiled program by its blocks, the plain one by its operations. -/
theorem algebraic : Cert.algebraic_KernelIdeal_ReferenceIdeal := by
  intro m ρ m' ρ' hpre hagree
  refine ⟨_, tiled_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefLayer.ref_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
